-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x512 : Shape := ⟨3, ![8, 1024, 512]⟩
abbrev S1024x512 : Shape := ⟨2, ![1024, 512]⟩
abbrev S1 : Shape := ⟨1, ![1]⟩
abbrev S_ : Shape := ⟨0, ![]⟩

class Facts : Prop where
  bcast_S_S8x1024x512 : S_.BroadcastsInDim S8x1024x512 (![] : Fin 0 → Fin S8x1024x512.rank)
  reducesTo_S8x1024x512_S_d0_1_2 : S8x1024x512.ReducesTo [0, 1, 2] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S8x1024x512 .f32) (main_arg1 : FVec F S1024x512 .f32) (main_arg2 : FVec F S1 .f32) : IVec S_ 1 :=
  let main_v0 : FVec F S8x1024x512 .f32 := Host.absf main_arg0
  let main_cst : FVec F S_ .f32 := constant S_ .f32 0x7F800000#32
  let main_v1 : FVec F S8x1024x512 .f32 := broadcastInDim S8x1024x512 ![] bcast_S_S8x1024x512 main_cst
  let main_v2 : IVec S8x1024x512 1 := cmpf .olt main_v0 main_v1
  let main_c : IVec S_ 1 := constantI S_ 1 1#1
  let main_v3 : IVec S_ 1 := (fun x v => Host.reduce IntOp.andi x v reducesTo_S8x1024x512_S_d0_1_2 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S8x1024x512 : Shape := ⟨3, ![8, 1024, 512]⟩
abbrev S1024x512 : Shape := ⟨2, ![1024, 512]⟩
abbrev S1 : Shape := ⟨1, ![1]⟩
abbrev S8x1024x1024 : Shape := ⟨3, ![8, 1024, 1024]⟩
abbrev S1x1024x512 : Shape := ⟨3, ![1, 1024, 512]⟩
abbrev S1x1024x1024 : Shape := ⟨3, ![1, 1024, 1024]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8x1024x512, .f32⟩
  | .hbm, ⟨1, _⟩ => ⟨S1024x512, .f32⟩
  | .hbm, ⟨2, _⟩ => ⟨S1, .f32⟩
  | .hbm, ⟨3, _⟩ => ⟨S8x1024x1024, .f32⟩
  | .local _ .vmem, ⟨0, _⟩ => ⟨S1x1024x512, .f32⟩
  | .local _ .vmem, ⟨1, _⟩ => ⟨S1x1024x512, .f32⟩
  | .local _ .vmem, ⟨2, _⟩ => ⟨S1024x512, .f32⟩
  | .local _ .vmem, ⟨3, _⟩ => ⟨S1, .f32⟩
  | .local _ .vmem, ⟨4, _⟩ => ⟨S1x1024x1024, .f32⟩
  | .local _ .vmem, ⟨5, _⟩ => ⟨S1x1024x1024, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  reduces_S1024x512_S1024 : S1024x512.Reduces [1] S1024
  shapeCasts_S1024_S1024x1 : S1024.ShapeCasts S1024x1
  shapeCasts_S1024_S1x1024 : S1024.ShapeCasts S1x1024
  broadcasts_S1024x1_S1024x1024 : S1024x1.Broadcasts S1024x1024
  broadcasts_S1x1024_S1024x1024 : S1x1024.Broadcasts S1024x1024
  inb_S1_S1_0 : ∀ a, (![0] : Fin 1 → Nat) a + S1.size a ≤ S1.size a
  h_S1 : 0 < S1.numel
  inpos_S1_p0 : ∀ a, (![0] : Fin 1 → Nat) a < S1.size a
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S8x1024x512.size a
  hwx0_0 : ∀ i : grid0.Coords, EltTy.bits .f32 = 32 ∨ (Rect.block (s := S8x1024x512) S1x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1.size a ≤ S1.size a
  hwx0_2 : ∀ i : grid0.Coords, EltTy.bits .f32 = 32 ∨ (Rect.block (s := S1) S1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S8x1024x1024.size a
  hwx0_3 : ∀ i : grid0.Coords, EltTy.bits .f32 = 32 ∨ (Rect.block (s := S8x1024x1024) S1x1024x1024.size (cc0_transform_3 i) (hinb0_3 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x1024x512 : Shape := ⟨3, ![8, 1024, 512]⟩
abbrev S1024x512 : Shape := ⟨2, ![1024, 512]⟩
abbrev S1 : Shape := ⟨1, ![1]⟩
abbrev S_ : Shape := ⟨0, ![]⟩
abbrev S8x1024 : Shape := ⟨2, ![8, 1024]⟩
abbrev S8x1024x1 : Shape := ⟨3, ![8, 1024, 1]⟩
abbrev S1024 : Shape := ⟨1, ![1024]⟩
abbrev S8x1024x1024 : Shape := ⟨3, ![8, 1024, 1024]⟩
abbrev S1x1x1024 : Shape := ⟨3, ![1, 1, 1024]⟩
abbrev S1x1x1 : Shape := ⟨3, ![1, 1, 1]⟩

abbrev nBuf : Space → Nat
  | .hbm => 23
  | .vmem => 0
  | .smem => 0
  | _ => 0

abbrev bufTy : (tb : Table) → Fin (tcTables nBuf tb) → BufTy
  | .hbm, ⟨0, _⟩ => ⟨S8x1024x512, .f32⟩
  | .hbm, ⟨1, _⟩ => ⟨S1024x512, .f32⟩
  | .hbm, ⟨2, _⟩ => ⟨S1, .f32⟩
  | .hbm, ⟨3, _⟩ => ⟨S8x1024x512, .f32⟩
  | .hbm, ⟨4, _⟩ => ⟨S_, .f32⟩
  | .hbm, ⟨5, _⟩ => ⟨S8x1024, .f32⟩
  | .hbm, ⟨6, _⟩ => ⟨S8x1024x1, .f32⟩
  | .hbm, ⟨7, _⟩ => ⟨S1024x512, .f32⟩
  | .hbm, ⟨8, _⟩ => ⟨S_, .f32⟩
  | .hbm, ⟨9, _⟩ => ⟨S1024, .f32⟩
  | .hbm, ⟨10, _⟩ => ⟨S8x1024x1024, .f32⟩
  | .hbm, ⟨11, _⟩ => ⟨S_, .f32⟩
  | .hbm, ⟨12, _⟩ => ⟨S8x1024x1024, .f32⟩
  | .hbm, ⟨13, _⟩ => ⟨S8x1024x1024, .f32⟩
  | .hbm, ⟨14, _⟩ => ⟨S8x1024x1024, .f32⟩
  | .hbm, ⟨15, _⟩ => ⟨S8x1024x1024, .f32⟩
  | .hbm, ⟨16, _⟩ => ⟨S1x1x1024, .f32⟩
  | .hbm, ⟨17, _⟩ => ⟨S8x1024x1024, .f32⟩
  | .hbm, ⟨18, _⟩ => ⟨S8x1024x1024, .f32⟩
  | .hbm, ⟨19, _⟩ => ⟨S8x1024x1024, .f32⟩
  | .hbm, ⟨20, _⟩ => ⟨S1x1x1, .f32⟩
  | .hbm, ⟨21, _⟩ => ⟨S8x1024x1024, .f32⟩
  | .hbm, ⟨22, _⟩ => ⟨S8x1024x1024, .f32⟩
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S8x1024x512_S8x1024_d2 : S8x1024x512.ReducesTo [2] S8x1024
  h_S_ : 0 < S_.numel
  bcast_S8x1024_S8x1024x1_0_1 : S8x1024.BroadcastsInDim S8x1024x1 (![0, 1] : Fin 2 → Fin S8x1024x1.rank)
  reducesTo_S1024x512_S1024_d1 : S1024x512.ReducesTo [1] S1024
  bcast_S_S8x1024x1024 : S_.BroadcastsInDim S8x1024x1024 (![] : Fin 0 → Fin S8x1024x1024.rank)
  bcast_S8x1024x1_S8x1024x1024_0_1_2 : S8x1024x1.BroadcastsInDim S8x1024x1024 (![0, 1, 2] : Fin 3 → Fin S8x1024x1024.rank)
  bcast_S1024_S1x1x1024_2 : S1024.BroadcastsInDim S1x1x1024 (![2] : Fin 1 → Fin S1x1x1024.rank)
  bcast_S1x1x1024_S8x1024x1024_0_1_2 : S1x1x1024.BroadcastsInDim S8x1024x1024 (![0, 1, 2] : Fin 3 → Fin S8x1024x1024.rank)
  bcast_S1_S1x1x1_2 : S1.BroadcastsInDim S1x1x1 (![2] : Fin 1 → Fin S1x1x1.rank)
  bcast_S1x1x1_S8x1024x1024_0_1_2 : S1x1x1.BroadcastsInDim S8x1024x1024 (![0, 1, 2] : Fin 3 → Fin S8x1024x1024.rank)
  dot_S8x1024x512_S1024x512_S8x1024x1024_2_1_01_0_n_n_wf : DotDims.WF S8x1024x512 S1024x512 S8x1024x1024 [2] [1] [0, 1] [0] [] []

variable [Facts₀]

def dot_S8x1024x512_S1024x512_S8x1024x1024_2_1_01_0_n_n : DotDims S8x1024x512 S1024x512 S8x1024x1024 where
  lhsContracting := [2]
  rhsContracting := [1]
  lhsNonContracting := [0, 1]
  rhsNonContracting := [0]
  lhsBatch := []
  rhsBatch := []
  wf := dot_S8x1024x512_S1024x512_S8x1024x1024_2_1_01_0_n_n_wf

class Facts : Prop extends Facts₀ where

variable [Facts]
-- ==== Proof.ScoreSpec.lean ====
/-
  The quantity both programs compute, stated once with no program in sight.

  A batch of 1024 token rows `tok t` and 1024 code rows `code k`, each of 512 extended reals, and a scale `prec`,
  give for every pair `(t, k)` the scaled negated squared distance in its EXPANDED form

      entry tok code prec t k = prec · −( (Σ_d tok t d · tok t d  −  2 · Σ_d tok t d · code k d)  +  Σ_d code k d · code k d ).

  The three sums are kept apart and grouped exactly as written: on the extended reals the expansion is not the
  square of a difference once an infinity appears, and nothing here needs it to be. `2` is the word `0x40000000`
  read as an extended real; it is never evaluated, because both programs spell the same word.

  `score x cb p` is that entry at every index `(b, t, k)` of the [8, 1024, 1024] result: batch `b`'s token rows of
  `x`, the codebook's rows, and the scale array's one element.
-/
import Idealize.ShloMosaic.PureOps.Ideal
import Idealize.ShloMosaic.Lib.ValueIdx

noncomputable section

open scoped BigOperators

namespace Cert.Score

open Idealize.ShloMosaic Idealize.ShloMosaic.ValueIdx

/-- The float word `2.0` as an extended real. -/
abbrev two : EReal := Ideal.ofBits .f32 0x40000000#32

/-- One entry: the scaled negated expanded squared distance between token row `t` and code row `k`. -/
def entry (tok code : Fin 1024 → Fin 512 → EReal) (prec : EReal) (t k : Fin 1024) : EReal :=
  prec * -(((∑ d : Fin 512, tok t d * tok t d) - two * ∑ d : Fin 512, tok t d * code k d)
    + ∑ d : Fin 512, code k d * code k d)

/-- The entry depends on the rows only through their values. -/
theorem entry_congr {tok tok' code code' : Fin 1024 → Fin 512 → EReal} {prec prec' : EReal}
    (ht : ∀ t d, tok t d = tok' t d) (hc : ∀ k d, code k d = code' k d) (hp : prec = prec') (t k : Fin 1024) :
    entry tok code prec t k = entry tok' code' prec' t k := by
  have e1 : tok = tok' := funext fun t => funext fun d => ht t d
  have e2 : code = code' := funext fun k => funext fun d => hc k d
  rw [e1, e2, hp]

/-- The whole result: at `(b, t, k)` the entry of batch `b`'s token rows against the codebook's rows. -/
def score (x : (⟨3, ![8, 1024, 512]⟩ : Shape).Idx → EReal) (cb : (⟨2, ![1024, 512]⟩ : Shape).Idx → EReal)
    (p : (⟨1, ![1]⟩ : Shape).Idx → EReal) : (⟨3, ![8, 1024, 1024]⟩ : Shape).Idx → EReal :=
  fun i => entry (fun t d => x (ix3 (i 0 : Fin 8) t d)) (fun k d => cb (ix2 k d)) (p (ix1 (0 : Fin 1)))
    (i 1 : Fin 1024) (i 2 : Fin 1024)

end Cert.Score

end
-- ==== Proof.RefScore.lean ====
/-
  The reference's result, read at an index, is `Cert.Score.score` of its three arguments.

  The host program multiplies `x` by itself and sums over the last axis (from the initial value `0`), does the same
  for the codebook, contracts `x` with the codebook over that axis, and combines the three as
  `p · −((‖x‖² − 2·x·c) + ‖c‖²)` after broadcasting each to [8, 1024, 1024]. Read at `(b, t, k)`: every broadcast
  reads its operand at the coordinates it keeps, so the row sum of `x²` is read at `(b, t)`, that of `c²` at `k`, the
  contraction pairs `x (b, t, d)` with `c (k, d)`, and the scale is the one element of `p`. The initial value `0` of each
  host sum is absorbed (`0 + s = s`), the host's negation is the negation of extended reals.
-/
import proofs.«155340_j46608985096388_1_alg».proof.Proof.Gen.ReferenceIdeal.Read
import proofs.«155340_j46608985096388_1_alg».proof.Proof.ScoreSpec

noncomputable section

open scoped BigOperators

namespace Cert.ReferenceIdeal.RefValue

open Cert.ReferenceIdeal Cert.ReferenceIdeal.Read Idealize.ShloMosaic Idealize.ShloMosaic.ValueIdx

/-- The last stage of the reference, at `Ideal`, is `score` of the arguments, index by index. -/
theorem stage_eq_score (x0 : (⟨S8x1024x512, .f32⟩ : BufTy).Contents (Elt Ideal))
    (x1 : (⟨S1024x512, .f32⟩ : BufTy).Contents (Elt Ideal)) (x2 : (⟨S1, .f32⟩ : BufTy).Contents (Elt Ideal)) :
    val_main_v16 (F := Ideal) x0 x1 x2 = Cert.Score.score x0 x1 x2 := by
  funext i
  -- where each operand is read, once the broadcasts are composed
  have e_p : idx_main_v14 (idx_main_v15 i) = ix1 (0 : Fin 1) :=
    funext fun a => by match a with | ⟨0, _⟩ => rfl
  have e_x : ∀ k : Fin 512, idx_main_v1 (idx_main_v2 (idx_main_v8 i)) k = ix3 (i 0 : Fin 8) (i 1 : Fin 1024) k :=
    fun k => funext fun a => by match a with | ⟨0, _⟩ => rfl | ⟨1, _⟩ => rfl | ⟨2, _⟩ => rfl
  have e_l : ∀ k : Fin 512, lidx_main_v5 i k = ix3 (i 0 : Fin 8) (i 1 : Fin 1024) k :=
    fun k => funext fun a => by match a with | ⟨0, _⟩ => rfl | ⟨1, _⟩ => rfl | ⟨2, _⟩ => rfl
  have e_r : ∀ k : Fin 512, ridx_main_v5 i k = ix2 (i 2 : Fin 1024) k :=
    fun k => funext fun a => by match a with | ⟨0, _⟩ => rfl | ⟨1, _⟩ => rfl
  have e_c : ∀ k : Fin 512, idx_main_v4 (idx_main_v10 (idx_main_v11 i)) k = ix2 (i 2 : Fin 1024) k :=
    fun k => funext fun a => by match a with | ⟨0, _⟩ => rfl | ⟨1, _⟩ => rfl
  rw [val_main_v16_apply, val_main_v15_apply, val_main_v14_apply, val_main_v13_apply, val_main_v12_apply,
    val_main_v9_apply, val_main_v8_apply, val_main_v2_apply, val_main_v1_apply, val_main_v7_apply, val_main_v6_apply,
    val_main_cst_1_apply, val_main_v5_apply, val_main_v11_apply, val_main_v10_apply, val_main_v4_apply,
    val_main_cst_apply, val_main_cst_0_apply]
  simp only [val_main_v0_apply, val_main_v3_apply, e_p, e_x, e_l, e_r, e_c, Ideal.mulf_def, Ideal.addf_def,
    Ideal.subf_def, Ideal.hostNegf_def, Ideal.negf_def, Ideal.ofBits_def, Ideal.ofBits_zero_f32, zero_add]
  rfl

end Cert.ReferenceIdeal.RefValue

end
-- ==== Proof.LibColumnLayout.lean ====
/-
  Two layout operations read at an index given by coordinates: the column forms a `keepdims` row reduction meets.
  A vector of `a` row values becomes an `[a, 1]` column by a shape cast, and that column is repeated along a new
  second axis of extent `b` by a broadcast; read at `(i, j)` the result is the vector's value at `i`, whatever `j`.
  General in the extents; stated over indices built from coordinates so that they apply by unification.
-/
import Idealize.ShloMosaic.Lib.ValueLayout

namespace Cert.Lib.ColumnLayout

open Idealize.ShloMosaic Idealize.ShloMosaic.ValueIdx

variable {α : Type}

/-- An `[a]` array cast to the column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the unit axis is read at `0`,
    the row axis at `p` (when `a` is itself `1` the row coordinate is `0` either way). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnLayout
-- ==== Proof.Payload.lean ====
/-
  What the kernel body stores, read at one index of the block.

  The body loads one batch's tokens `x0 : [1, 1024, 512]`, the whole codebook `x1 : [1024, 512]` and the scale
  `x2 : [1]`, and stores ONE value for the [1, 1024, 1024] output block. Read at `(u, t, k)` that value is
  `Cert.Score.entry` of the batch's token rows, the codebook's rows and the scale:
    • the matrix product into a zero accumulator, contracting the last axis of both operands, is at `(t, k)` the sum
      over `d` of `x0 (0, t, d) · x1 (k, d)` (the narrowing of both operands to sixteen bits is the identity on
      extended reals);
    • the lane sum of `x0²`, kept as a column and repeated along the columns, is at `(t, k)` the sum over `d` of
      `x0 (0, t, d)²`; the lane sum of `x1²`, laid as a row and repeated along the rows, is the sum over `d` of `x1 (k, d)²`;
    • the body negates by subtracting from the zero word, and `0 − y = −y` on every extended real.
-/
import proofs.«155340_j46608985096388_1_alg».proof.Proof.Gen.KernelIdeal.Skeleton
import proofs.«155340_j46608985096388_1_alg».proof.Proof.ScoreSpec
import proofs.«155340_j46608985096388_1_alg».proof.Proof.LibColumnLayout
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.Lib.ColumnLayout

/-! ## The matrix product at `(t, k)` -/

/-- The product's dimension numbers contract axis 1 of both operands and keep axis 0 of each: the left operand is read
    in the output's row, -/
theorem lhs_row (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide),
    dif_pos (show (0 : Fin S1024x512.rank) ∈ dot_S1024x512_S1024x512_S1024x1024_1_1_0_0_n_n.lhsNonContracting by decide)]
  rfl
/-- at the contraction position; -/
theorem lhs_col (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
/-- the right operand in the row the output's COLUMN names, -/
theorem rhs_row (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide),
    dif_pos (show (0 : Fin S1024x512.rank) ∈ dot_S1024x512_S1024x512_S1024x1024_1_1_0_0_n_n.rhsNonContracting by decide)]
  rfl
/-- at the contraction position. -/
theorem rhs_col (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- So the product into the zero accumulator is, at `(t, k)`, the sum over the shared axis of row `t` of the left
    operand against row `k` of the right. -/
theorem gram_apply {φ₁ φ₂ : FTy} (l : FVec Ideal S1024x512 φ₁) (r : FVec Ideal S1024x512 φ₂) (t k : Fin 1024) :
    matmul dot_S1024x512_S1024x512_S1024x1024_1_1_0_0_n_n none l r (constant (F := Ideal) S1024x1024 .f32 0x00000000#32) (ix2 t k)
      = ∑ d : Fin 512, l (ix2 t d) * r (ix2 k d) := by
  simp only [matmul]
  rw [Ideal.matmul_constant_zero_apply,
    ← Equiv.sum_comp (contrEquiv1 dot_S1024x512_S1024x512_S1024x1024_1_1_0_0_n_n 512 rfl rfl).symm]
  refine Finset.sum_congr rfl fun d _ => ?_
  have hd := contrEquiv1_symm_val dot_S1024x512_S1024x512_S1024x1024_1_1_0_0_n_n 512 rfl rfl d
  have el : dot_S1024x512_S1024x512_S1024x1024_1_1_0_0_n_n.lhsIdx (ix2 t k)
      ((contrEquiv1 dot_S1024x512_S1024x512_S1024x1024_1_1_0_0_n_n 512 rfl rfl).symm d) = ix2 t d :=
    funext fun a => Fin.ext (by
      match a with
      | ⟨0, _⟩ => exact lhs_row _ _
      | ⟨1, _⟩ => exact (lhs_col _ _).trans hd)
  have er : dot_S1024x512_S1024x512_S1024x1024_1_1_0_0_n_n.rhsIdx (ix2 t k)
      ((contrEquiv1 dot_S1024x512_S1024x512_S1024x1024_1_1_0_0_n_n 512 rfl rfl).symm d) = ix2 k d :=
    funext fun a => Fin.ext (by
      match a with
      | ⟨0, _⟩ => exact rhs_row _ _
      | ⟨1, _⟩ => exact (rhs_col _ _).trans hd)
  rw [el, er]

/-! ## The lane sums, and how the body lays them out -/

/-- A sum along the lanes of a [1024, 512] vector is, in row `t`, the sum of that row's 512 entries. -/
theorem rowSum_apply (v : FVec Ideal S1024x512 .f32) (h : S1024x512.Reduces [1] S1024) (hφ : FKind.Formats .f32)
    (hacc : (0x00000000#32 : BitVec 32) = 0x00000000#32) (t : Fin 1024) :
    multiReduction .add [1] S1024 v 0x00000000#32 h hφ hacc (ix1 t) = ∑ d : Fin 512, v (ix2 t d) := by
  refine (Ideal.multiReduction_add_single v 0x00000000#32 h hφ hacc (ix1 t)).trans ?_
  refine Finset.sum_congr rfl fun d _ => congrArg v (funext fun a => Fin.ext ?_)
  match a with
  | ⟨0, _⟩ => rfl
  | ⟨1, _⟩ => rfl

/-- Kept as a column and repeated along the columns, the row sums are read, at `(t, k)`, in row `t`. -/
theorem rowSum_down_apply (v : FVec Ideal S1024x512 .f32) (h : S1024x512.Reduces [1] S1024) (hφ : FKind.Formats .f32)
    (hacc : (0x00000000#32 : BitVec 32) = 0x00000000#32) (hc : S1024.ShapeCasts S1024x1) (hb : S1024x1.Broadcasts S1024x1024)
    (t k : Fin 1024) :
    broadcastTo S1024x1024 (shapeCast S1024x1 (multiReduction .add [1] S1024 v 0x00000000#32 h hφ hacc) hc) hb (ix2 t k)
      = ∑ d : Fin 512, v (ix2 t d) :=
  (broadcastTo_a1_ab_apply _ hb t k).trans ((shapeCast_a_a1_apply _ hc t (0 : Fin 1)).trans (rowSum_apply v h hφ hacc t))

/-- Laid as a row and repeated along the rows, they are read, at `(t, k)`, in row `k`. -/
theorem rowSum_across_apply (v : FVec Ideal S1024x512 .f32) (h : S1024x512.Reduces [1] S1024) (hφ : FKind.Formats .f32)
    (hacc : (0x00000000#32 : BitVec 32) = 0x00000000#32) (hc : S1024.ShapeCasts S1x1024) (hb : S1x1024.Broadcasts S1024x1024)
    (t k : Fin 1024) :
    broadcastTo S1024x1024 (shapeCast S1x1024 (multiReduction .add [1] S1024 v 0x00000000#32 h hφ hacc) hc) hb (ix2 t k)
      = ∑ d : Fin 512, v (ix2 k d) :=
  (broadcastTo_1b_ab_apply _ hb t k).trans ((shapeCast_a_1a_apply _ hc (0 : Fin 1) k).trans (rowSum_apply v h hφ hacc k))

/-- The scale is the one element of its array. -/
theorem scale_apply (x2 : FVec Ideal S1 .f32) (h : ∀ a, (![0] : Fin 1 → Nat) a < S1.size a) :
    extractAt ![0] x2 h = x2 (ix1 (0 : Fin 1)) :=
  congrArg x2 (funext fun a => by match a with | ⟨0, _⟩ => rfl)

/-- One batch's tokens, viewed as a matrix, are read at row `r`, lane `d` from the block at `(0, r, d)`. -/
theorem tokens_apply (x0 : FVec Ideal S1x1024x512 .f32) (h : S1x1024x512.ShapeCasts S1024x512) (r : Fin 1024) (d : Fin 512) :
    shapeCast S1024x512 x0 h (ix2 r d) = x0 (ix3 (0 : Fin 1) r d) :=
  shapeCast_1ab_ab_apply x0 h r d

/-! ## The stored value at `(u, t, k)` -/

/-- The body's one stored value, at index `(u, t, k)` of the output block, is the entry of the loaded token rows against
    the loaded code rows at `(t, k)`, scaled by the loaded scale. -/
theorem pay_apply (x0 : FVec Ideal S1x1024x512 .f32) (x1 : FVec Ideal S1024x512 .f32) (x2 : FVec Ideal S1 .f32)
    (u : Fin 1) (t k : Fin 1024) :
    k0_pay1 (F := Ideal) x0 x1 x2 (ix3 u t k)
      = Cert.Score.entry (fun t d => x0 (ix3 (0 : Fin 1) t d)) (fun k d => x1 (ix2 k d)) (x2 (ix1 (0 : Fin 1))) t k := by
  unfold k0_pay1
  refine (shapeCast_ab_1ab_apply _ _ u t k).trans ?_
  -- the pointwise operations at the index; the zero word is `0`, and `0 − y = −y`
  simp only [mulf_apply, subf_apply, addf_apply, broadcast_apply, Ideal.ofBits_def, Ideal.ofBits_zero_f32, zero_sub]
  unfold Cert.Score.entry
  refine congrArg₂ (· * ·) (scale_apply x2 _)
    (congrArg Neg.neg (congrArg₂ (· + ·) (congrArg₂ (· - ·) ?_ (congrArg (Cert.Score.two * ·) ?_)) ?_))
  · -- the tokens' squared norm, read in row `t`
    exact (rowSum_down_apply _ _ _ _ _ _ t k).trans
      (Finset.sum_congr rfl fun d _ => congrArg₂ (· * ·) (tokens_apply x0 _ t d) (tokens_apply x0 _ t d))
  · -- the product of token row `t` with code row `k`
    exact (gram_apply _ _ t k).trans
      (Finset.sum_congr rfl fun d _ => congrArg₂ (· * ·) (tokens_apply x0 _ t d) rfl)
  · -- the codes' squared norm, read in row `k`
    exact rowSum_across_apply _ _ _ _ _ _ t k

end Cert.KernelIdeal.Payload

end
-- ==== Proof.KernelScore.lean ====
/-
  From the blocks to the array: after the kernel's run the result array is `Cert.Score.score` of the three arguments.

  The grid has eight points, one per batch. At point `b` the body sees rows `(b, ·, ·)` of `x` as its [1, 1024, 512] block,
  the whole codebook and the whole scale array (their blocks do not move), and writes back block `b` of the result,
  rows `(b, ·, ·)`. By `Payload.pay_apply` what it writes at `(0, t, k)` of the block is the entry of batch `b`'s token rows
  against the code rows — which is `score` at `(b, t, k)`. The eight blocks tile the [8, 1024, 1024] result (index
  `(b, t, k)` lies in block `b`), so the whole array ends at `score`.
-/
import proofs.«155340_j46608985096388_1_alg».proof.Proof.Gen.KernelIdeal.Value
import proofs.«155340_j46608985096388_1_alg».proof.Proof.Payload
import Idealize.ShloMosaic.Lib.Pipeline.Value

set_option maxRecDepth 16384

noncomputable section

namespace Cert.KernelIdeal.Whole

open Cert.KernelIdeal Cert.KernelIdeal.Gen Cert.KernelIdeal.Value Idealize.ShloMosaic Idealize.ShloMosaic.TcCoe
open Idealize.SL.Sem Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the eight points: the token window and the result window sit at block
    `(t, 0, 0)`, the codebook window and the scale window at block zero throughout. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 3) = t.val ∧ win0_3.index t (1 : Fin 3) = 0 ∧ win0_3.index t (2 : Fin 3) = 0 :=
  (by decide +kernel : ∀ t : Fin grid0.N, _)

/-- A block's value at `(u, r, k)` is `score` at `(b, r, k)` as soon as its three loads are batch `b`'s token rows, the
    code rows and the scale. Stated over plain vectors; the windows' blocks are put in afterwards. -/
theorem block_entry (X : S8x1024x512.Idx → EReal) (C : S1024x512.Idx → EReal) (P : S1.Idx → EReal)
    (x0 : FVec Ideal S1x1024x512 .f32) (x1 : FVec Ideal S1024x512 .f32) (x2 : FVec Ideal S1 .f32) (b : Fin 8)
    (h0 : ∀ (r : Fin 1024) (d : Fin 512), x0 (ix3 (0 : Fin 1) r d) = X (ix3 b r d))
    (h1 : ∀ (k : Fin 1024) (d : Fin 512), x1 (ix2 k d) = C (ix2 k d))
    (h2 : x2 (ix1 (0 : Fin 1)) = P (ix1 (0 : Fin 1)))
    (u : Fin 1) (r k : Fin 1024) :
    k0_pay1 (F := Ideal) x0 x1 x2 (ix3 u r k) = Cert.Score.score X C P (ix3 b r k) :=
  (Payload.pay_apply x0 x1 x2 u r k).trans (Cert.Score.entry_congr h0 h1 h2 r k)

/-- WHAT POINT `t` WRITES BACK is block `t` of `score` of the argument arrays as the region finds them. -/
theorem flushed_eq (c : Dev nD) (t : Fin cfg0.N) :
    (dats m 0 c).flushed 3 t = ((cfg0.win 3).blk t).view.read (Elt Ideal)
      (Cert.Score.score (V m c main_arg0) (V m c main_arg1) (V m c main_arg2)) := by
  rw [flushed3 m c t]
  unfold out0_3
  rw [View.canon_unit_zero hz3]
  simp only [View.ld_unit_zero (S := S1x1024x512) hz3, View.ld_unit_zero (S := S1024x512) hz2, View.ld_unit_zero (S := S1) hz1]
  obtain ⟨a0, a1, a2, c0, c1, p0, o0, o1, o2⟩ := idx_facts t
  have hN : cfg0.N = 8 := N_0
  have htN : t.val < 8 := by have := t.isLt; omega
  funext j
  obtain ⟨u, r, k, rfl⟩ : ∃ (u : Fin 1) (r : Fin 1024) (k : Fin 1024), j = ix3 u r k := ⟨j 0, j 1, j 2, eq_ix3 j⟩
  have hu : u.val = 0 := by omega
  show k0_pay1 (F := Ideal) (iblk m c 0 t) (iblk m c 1 t) (iblk m c 2 t) (ix3 u r k)
    = Cert.Score.score (V m c main_arg0) (V m c main_arg1) (V m c main_arg2) (((cfg0.win 3).blk t).view.emb (ix3 u r k))
  -- the block's index (u, r, k) sits at (t, r, k) of the result
  have he : ((cfg0.win 3).blk t).view.emb (ix3 u r k) = ix3 (⟨t.val, htN⟩ : Fin 8) r k := by
    funext a; apply Fin.ext
    match a with
    | ⟨0, _⟩ => show win0_3.index t (0 : Fin 3) * 1 + 1 * u.val = t.val; omega
    | ⟨1, _⟩ => show win0_3.index t (1 : Fin 3) * 1024 + 1 * r.val = r.val; omega
    | ⟨2, _⟩ => show win0_3.index t (2 : Fin 3) * 1024 + 1 * k.val = k.val; omega
  rw [he]
  refine block_entry _ _ _ _ _ _ ⟨t.val, htN⟩ (fun r' d => ?_) (fun k' d => ?_) ?_ u r k
  · -- the token window's block at point t: rows (t, ·, ·) of x
    show V m c main_arg0 (((cfg0.win 0).blk t).view.emb (ix3 (0 : Fin 1) r' d)) = V m c main_arg0 (ix3 (⟨t.val, htN⟩ : Fin 8) r' d)
    refine congrArg (V m c main_arg0) (funext fun a => Fin.ext ?_)
    match a with
    | ⟨0, _⟩ => show win0_0.index t (0 : Fin 3) * 1 + 1 * 0 = t.val; omega
    | ⟨1, _⟩ => show win0_0.index t (1 : Fin 3) * 1024 + 1 * r'.val = r'.val; omega
    | ⟨2, _⟩ => show win0_0.index t (2 : Fin 3) * 512 + 1 * d.val = d.val; omega
  · -- the codebook window's block: the whole codebook
    show V m c main_arg1 (((cfg0.win 1).blk t).view.emb (ix2 k' d)) = V m c main_arg1 (ix2 k' d)
    refine congrArg (V m c main_arg1) (funext fun a => Fin.ext ?_)
    match a with
    | ⟨0, _⟩ => show win0_1.index t (0 : Fin 2) * 1024 + 1 * k'.val = k'.val; omega
    | ⟨1, _⟩ => show win0_1.index t (1 : Fin 2) * 512 + 1 * d.val = d.val; omega
  · -- the scale window's block: the whole scale array
    show V m c main_arg2 (((cfg0.win 2).blk t).view.emb (ix1 (0 : Fin 1))) = V m c main_arg2 (ix1 (0 : Fin 1))
    refine congrArg (V m c main_arg2) (funext fun a => Fin.ext ?_)
    match a with
    | ⟨0, _⟩ => show win0_2.index t (0 : Fin 1) * 1 + 1 * 0 = 0; omega

/-- An index of the result is in point `t`'s block iff each coordinate is in the block's range on its axis. -/
theorem mem_blk (t : Fin cfg0.N) (i : S8x1024x1024.Idx) :
    i ∈ ((cfg0.win 3).blk t).view.set ↔ ∀ a : Fin 3, win0_3.index t a * S1x1024x1024.size a ≤ (i a).val
      ∧ (i a).val < win0_3.index t a * S1x1024x1024.size a + S1x1024x1024.size a := by
  show i ∈ ((View.whole main_v0).slice (win0_3.rect t)).set ↔ _
  rw [View.set_slice_whole, Rect.mem_set_unit]
  exact Iff.rfl

/-- Every index `(b, t, k)` of the result lies in the block of point `b`, which is written back. -/
theorem cover (i : S8x1024x1024.Idx) :
    ∃ t : Fin cfg0.N, (cfg0.win 3).flush t = true ∧ i ∈ ((cfg0.win 3).blk t).view.set := by
  have hN : cfg0.N = 8 := N_0
  have h0 : (i 0).val < 8 := (i 0).isLt
  have h1 : (i 1).val < 1024 := (i 1).isLt
  have h2 : (i 2).val < 1024 := (i 2).isLt
  have hlt : (i 0).val < cfg0.N := by omega
  refine ⟨⟨(i 0).val, hlt⟩, flush0_3 _, ?_⟩
  rw [mem_blk]
  obtain ⟨-, -, -, -, -, -, o0, o1, o2⟩ := idx_facts ⟨(i 0).val, hlt⟩
  have o0' : win0_3.index ⟨(i 0).val, hlt⟩ (0 : Fin 3) = (i 0).val := o0
  intro a
  match a with
  | ⟨0, _⟩ =>
    show win0_3.index ⟨(i 0).val, hlt⟩ (0 : Fin 3) * 1 ≤ (i 0).val ∧ (i 0).val < win0_3.index ⟨(i 0).val, hlt⟩ (0 : Fin 3) * 1 + 1
    omega
  | ⟨1, _⟩ =>
    show win0_3.index ⟨(i 0).val, hlt⟩ (1 : Fin 3) * 1024 ≤ (i 1).val ∧ (i 1).val < win0_3.index ⟨(i 0).val, hlt⟩ (1 : Fin 3) * 1024 + 1024
    omega
  | ⟨2, _⟩ =>
    show win0_3.index ⟨(i 0).val, hlt⟩ (2 : Fin 3) * 1024 ≤ (i 2).val ∧ (i 2).val < win0_3.index ⟨(i 0).val, hlt⟩ (2 : Fin 3) * 1024 + 1024
    omega

/-- THE ARRAY after the run: `score` of the argument arrays as launched. -/
theorem final (c : Dev nD) :
    (dats m 0 c).arrAt 3 cfg0.N = Cert.Score.score (m ((c : Thread nD τ).loc main_arg0))
      (m ((c : Thread nD τ).loc main_arg1)) (m ((c : Thread nD τ).loc main_arg2)) :=
  (dats m 0 c).arrAt_eq_of_cover 3 _ (fun t _ => flushed_eq m c t) cover

/-- The kernel's run, read: the result array at `score` of the arguments, the arguments unchanged. -/
theorem run : θ_run defs (onTc (τ := τ) (main (F := Ideal))) ⟨m, fun _ => 0, ρ⟩ fun r => ∀ c : Dev nD,
      r.2.mem ((c : Thread nD τ).loc main_v0) = Cert.Score.score (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Whole

end
-- ==== Proof.lean ====
/-
  The kernel and the reference compute one function on the extended reals.

  For tokens `x : [8, 1024, 512]`, a codebook `c : [1024, 512]` and a scale `p : [1]`, both programs produce, at
  `(b, t, k)`,

      p · −( (Σ_d x(b,t,d)²  −  2 · Σ_d x(b,t,d) · c(k,d))  +  Σ_d c(k,d)² )

  — the scaled negated squared distance between token `(b, t)` and code `k`, in its expanded form, the three sums grouped
  the same way on both sides and `2` the same float word. The kernel takes one batch per grid point, multiplies the
  batch's tokens with the codebook on the matrix unit after narrowing both to sixteen bits (the identity on extended
  reals), sums squares along the lanes, and negates by subtracting from zero; the reference does the same with host
  operations over the whole arrays and a `negate`. The only laws used are `0 + s = s` for the host sums' initial value
  and `0 − y = −y`; neither needs the inputs to be finite, so the precondition is never opened.

  `Cert.Score.score` (ScoreSpec) is that function. RefScore reads the reference's operations at an index and finds
  `score`; Payload reads the kernel body's one stored value at an index of its block and finds the same entry;
  KernelScore carries that from the eight blocks to the whole result array. The three frames are the generated ones (the
  reference's is its generated run with the result dropped), and the idealization changed no operation, so there is
  nothing to preserve.
-/
import proofs.«155340_j46608985096388_1_alg».proof.Defs
import proofs.«155340_j46608985096388_1_alg».proof.Proof.Gen.Kernel
import proofs.«155340_j46608985096388_1_alg».proof.Proof.Gen.Kernel.Skeleton
import proofs.«155340_j46608985096388_1_alg».proof.Proof.Gen.Kernel.Launch
import proofs.«155340_j46608985096388_1_alg».proof.Proof.Gen.Kernel.Points
import proofs.«155340_j46608985096388_1_alg».proof.Proof.Gen.Kernel.Frame
import proofs.«155340_j46608985096388_1_alg».proof.Proof.Gen.KernelIdeal
import proofs.«155340_j46608985096388_1_alg».proof.Proof.Gen.KernelIdeal.Skeleton
import proofs.«155340_j46608985096388_1_alg».proof.Proof.Gen.KernelIdeal.Launch
import proofs.«155340_j46608985096388_1_alg».proof.Proof.Gen.KernelIdeal.Points
import proofs.«155340_j46608985096388_1_alg».proof.Proof.Gen.KernelIdeal.Frame
import proofs.«155340_j46608985096388_1_alg».proof.Proof.Gen.ReferenceIdeal
import proofs.«155340_j46608985096388_1_alg».proof.Proof.Gen.Pre_finite_inputs
import proofs.«155340_j46608985096388_1_alg».proof.Proof.Gen.KernelIdeal.Value
import proofs.«155340_j46608985096388_1_alg».proof.Proof.Gen.ReferenceIdeal.Run
import proofs.«155340_j46608985096388_1_alg».proof.Proof.Gen.ReferenceIdeal.Read
import proofs.«155340_j46608985096388_1_alg».proof.Proof.RefScore
import proofs.«155340_j46608985096388_1_alg».proof.Proof.KernelScore
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the three arguments, the kernel's result array ends at `score` of its arguments and the
    reference's result at `score` of its own, which are the same arrays. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v16_eq _ _ _).trans (Cert.ReferenceIdeal.RefValue.stage_eq_score _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
